-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64x4096 : Shape := ⟨2, ![64, 4096]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x4096x4096 .f32) (main_arg1 : FVec F S64x4096 .f32) (main_arg2 : FVec F S64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x4096x4096 : Shape := ⟨3, ![4, 4096, 4096]⟩
abbrev S64x4096 : Shape := ⟨2, ![64, 4096]⟩
abbrev S64 : Shape := ⟨1, ![64]⟩
abbrev S16384x4096 : Shape := ⟨2, ![16384, 4096]⟩
abbrev S16384x64 : Shape := ⟨2, ![16384, 64]⟩
abbrev S1024x4096 : Shape := ⟨2, ![1024, 4096]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩
abbrev S4x4096x64 : Shape := ⟨3, ![4, 4096, 64]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64, .f32⟩
  | .hbm, ⟨3, _⟩ => ⟨S16384x4096, .f32⟩
  | .hbm, ⟨4, _⟩ => ⟨S16384x64, .f32⟩
  | .hbm, ⟨5, _⟩ => ⟨S4x4096x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S64, .f32⟩
  | .local _ .vmem, ⟨4, _⟩ => ⟨S1024x64, .f32⟩
  | .local _ .vmem, ⟨5, _⟩ => ⟨S1024x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S64x4096_S64x4096_0_0 : ∀ a, (![0, 0] : Fin 2 → Nat) a + S64x4096.size a ≤ S64x4096.size a
  h_S64x4096 : 0 < S64x4096.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  shapeCasts_S16384x64_S4x4096x64 : S16384x64.ShapeCasts S4x4096x64
  dot_S1024x4096_S64x4096_S1024x64_1_1_0_0_n_n_wf : DotDims.WF S1024x4096 S64x4096 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)

variable [Facts₀]

def dot_S1024x4096_S64x4096_S1024x64_1_1_0_0_n_n : DotDims S1024x4096 S64x4096 S1024x64 where
  lhsContracting := [1]
  rhsContracting := [1]
  lhsNonContracting := [0]
  rhsNonContracting := [0]
  lhsBatch := []
  rhsBatch := []
  wf := dot_S1024x4096_S64x4096_S1024x64_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S64x4096 : Shape := ⟨2, ![64, 4096]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64, .f32⟩
  | .hbm, ⟨3, _⟩ => ⟨S4x4096x64, .f32⟩
  | .hbm, ⟨4, _⟩ => ⟨S1x1x64, .f32⟩
  | .hbm, ⟨5, _⟩ => ⟨S4x4096x64, .f32⟩
  | .hbm, ⟨6, _⟩ => ⟨S4x4096x64, .f32⟩
  | .hbm, ⟨7, _⟩ => ⟨S_, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096x1, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x64, .f32⟩
  | .hbm, ⟨20, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  dot_S4x4096x4096_S64x4096_S4x4096x64_2_1_01_0_n_n_wf : DotDims.WF S4x4096x4096 S64x4096 S4x4096x64 [2] [1] [0, 1] [0] [] []

variable [Facts₀]

def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf

class Facts : Prop extends Facts₀ where

variable [Facts]
-- ==== Proof.Softmax.lean ====
/-
  The router head as one function of its arguments, on the extended reals.

  For one token (a row `xr` of 4096 activations), the weight matrix `W` (64 experts by 4096) and the bias `b`:
  the logit of expert `e` is `Σ_d xr d · W e d + b e`; the row's maximum is the fold of `max` over the 64 logits
  from −∞; and the probability of expert `e` is `exp (ℓ e − max) / Σ_k exp (ℓ k − max)`. Both programs compute this,
  row by row: the kernel on rows `R` of the tokens flattened to `[16384, 4096]`, the reference on tokens `(a, r)` of
  `[4, 4096, 4096]`, with `R = a · 4096 + r`. Nothing here depends on the inputs being finite: sums and maxima on the
  extended reals do not depend on order or grouping.
-/
import Idealize.ShloMosaic.PureOps.Ideal
import Idealize.ShloMosaic.Lib.ValueIdx

noncomputable section

namespace Cert.Router

open Idealize.ShloMosaic Idealize.ShloMosaic.ValueIdx
open scoped BigOperators

/-- The logit of expert `e` for one token. -/
def logit (xr : Fin 4096 → EReal) (W : Fin 64 → Fin 4096 → EReal) (b : Fin 64 → EReal) (e : Fin 64) : EReal :=
  (∑ d : Fin 4096, xr d * W e d) + b e

/-- The maximum of a row of 64 logits, folded from −∞ (the f32 word `0xFF800000`). -/
def rowMax (ℓ : Fin 64 → EReal) : EReal :=
  (Finset.univ : Finset (Fin 64)).fold max (Ideal.ofBits .f32 0xFF800000#32) ℓ

/-- The softmax of a row of 64 logits, shifted by the row's maximum. -/
def softmax (ℓ : Fin 64 → EReal) (e : Fin 64) : EReal :=
  Ideal.div (Ideal.exp (ℓ e - rowMax ℓ)) (∑ k : Fin 64, Ideal.exp (ℓ k - rowMax ℓ))

/-- The router head for one token: the softmax of its logits. -/
def head (xr : Fin 4096 → EReal) (W : Fin 64 → Fin 4096 → EReal) (b : Fin 64 → EReal) (e : Fin 64) : EReal :=
  softmax (logit xr W b) e

/-- The weight matrix and the bias as functions of their coordinates. -/
abbrev wOf (W : (⟨2, ![64, 4096]⟩ : Shape).Idx → EReal) : Fin 64 → Fin 4096 → EReal := fun k d => W (ix2 k d)
abbrev bOf (b : (⟨1, ![64]⟩ : Shape).Idx → EReal) : Fin 64 → EReal := fun k => b (ix1 k)

/-- The head over `n` flattened token rows: entry `(R, e)` is the head of row `R`. -/
def G2 {n : ℕ} (x : (⟨2, ![n, 4096]⟩ : Shape).Idx → EReal) (W : (⟨2, ![64, 4096]⟩ : Shape).Idx → EReal)
    (b : (⟨1, ![64]⟩ : Shape).Idx → EReal) : (⟨2, ![n, 64]⟩ : Shape).Idx → EReal := fun j =>
  head (fun d => x (ix2 (⟨(j 0).val, (j 0).isLt⟩ : Fin n) d)) (wOf W) (bOf b) ⟨(j 1).val, (j 1).isLt⟩

theorem G2_ix2 {n : ℕ} (x : (⟨2, ![n, 4096]⟩ : Shape).Idx → EReal) (W : (⟨2, ![64, 4096]⟩ : Shape).Idx → EReal)
    (b : (⟨1, ![64]⟩ : Shape).Idx → EReal) (R : Fin n) (e : Fin 64) :
    G2 x W b (ix2 R e) = head (fun d => x (ix2 R d)) (wOf W) (bOf b) e := rfl

/-- The head over the `[4, 4096]` tokens: entry `(a, r, e)` is the head of token `(a, r)`. -/
def G3 (x : (⟨3, ![4, 4096, 4096]⟩ : Shape).Idx → EReal) (W : (⟨2, ![64, 4096]⟩ : Shape).Idx → EReal)
    (b : (⟨1, ![64]⟩ : Shape).Idx → EReal) : (⟨3, ![4, 4096, 64]⟩ : Shape).Idx → EReal := fun i =>
  head (fun d => x (ix3 (⟨(i 0).val, (i 0).isLt⟩ : Fin 4) (⟨(i 1).val, (i 1).isLt⟩ : Fin 4096) d)) (wOf W) (bOf b)
    ⟨(i 2).val, (i 2).isLt⟩

theorem G3_ix3 (x : (⟨3, ![4, 4096, 4096]⟩ : Shape).Idx → EReal) (W : (⟨2, ![64, 4096]⟩ : Shape).Idx → EReal)
    (b : (⟨1, ![64]⟩ : Shape).Idx → EReal) (a : Fin 4) (r : Fin 4096) (e : Fin 64) :
    G3 x W b (ix3 a r e) = head (fun d => x (ix3 a r d)) (wOf W) (bOf b) e := rfl

end Cert.Router

end
-- ==== Proof.LibFlashForms.lean ====
/-
  Forms an attention kernel's key-block step reads at an index, for any extents, on the extended reals: the product
  `A · Bᵀ` of an `[a, w]` by a `[b, w]` matrix (both contracted along their second axis) onto the zero accumulator is, at
  `(p, k)`, the sum over `d` of `A (p, d) · B (k, d)`; the vector unit's maximum over the columns of an `[a, b]` matrix is, at
  row `p`, the fold of `max` over that row from the accumulator's value; and a unit-stride slice of columns `o … o + w - 1`
  of an `[n, W]` matrix reads, at `(r, j)`, the matrix at `(r, o + j)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibFlashForms

open Idealize.ShloMosaic Idealize.ShloMosaic.ValueIdx
open scoped BigOperators

variable {α : Type}

/-- The product of an `[a, w]` by the transpose of a `[b, w]` matrix onto the zero accumulator, read at `(p, k)`. -/
theorem matmul_nt_zero_apply {a b w : ℕ} {φ₁ φ₂ : FTy}
    (wf : DotDims.WF ⟨2, ![a, w]⟩ ⟨2, ![b, w]⟩ ⟨2, ![a, b]⟩ [1] [1] [0] [0] [] [])
    (prec : Option ContractPrecision) (A : FVec Ideal ⟨2, ![a, w]⟩ φ₁) (B : FVec Ideal ⟨2, ![b, w]⟩ φ₂)
    (p : Fin a) (k : Fin b) :
    matmul (⟨[1], [1], [0], [0], [], [], wf⟩ : DotDims ⟨2, ![a, w]⟩ ⟨2, ![b, w]⟩ ⟨2, ![a, b]⟩) prec A B
        (constant (F := Ideal) ⟨2, ![a, b]⟩ .f32 0x00000000#32) (ix2 p k)
      = ∑ d : Fin w, A (ix2 p d) * B (ix2 k d) := by
  show FloatOps.matmul _ prec A B _ (ix2 p k) = _
  rw [Ideal.matmul_constant_zero_apply,
    ← Equiv.sum_comp (contrEquiv1 (⟨[1], [1], [0], [0], [], [], wf⟩ : DotDims ⟨2, ![a, w]⟩ ⟨2, ![b, w]⟩ ⟨2, ![a, b]⟩) w rfl rfl).symm]
  refine Finset.sum_congr rfl fun d _ => ?_
  have c2 := contrEquiv1_symm_val
    (⟨[1], [1], [0], [0], [], [], wf⟩ : DotDims ⟨2, ![a, w]⟩ ⟨2, ![b, w]⟩ ⟨2, ![a, b]⟩) w rfl rfl d
  have l2 : (⟨[1], [1], [0], [0], [], [], wf⟩ : DotDims ⟨2, ![a, w]⟩ ⟨2, ![b, w]⟩ ⟨2, ![a, b]⟩).lhsIdx (ix2 p k)
      ((contrEquiv1 _ w rfl rfl).symm d) = ix2 p d := by
    funext ax; apply Fin.ext
    match ax with
    | ⟨0, _⟩ => simp [DotDims.lhsIdx]; rfl
    | ⟨1, _⟩ => simp [DotDims.lhsIdx]; exact c2
  have r2 : (⟨[1], [1], [0], [0], [], [], wf⟩ : DotDims ⟨2, ![a, w]⟩ ⟨2, ![b, w]⟩ ⟨2, ![a, b]⟩).rhsIdx (ix2 p k)
      ((contrEquiv1 _ w rfl rfl).symm d) = ix2 k d := by
    funext ax; apply Fin.ext
    match ax with
    | ⟨0, _⟩ => simp [DotDims.rhsIdx]; rfl
    | ⟨1, _⟩ => simp [DotDims.rhsIdx]; exact c2
  rw [l2, r2]

/-- On the extended reals, the vector unit's maximum over the columns of an `[a, b]` matrix is, at row `p`, the fold of
    `max` over that row's `b` entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  refine (Ideal.multiReduction_maximumf_single src acc h hφ hacc (ix1 p)).trans ?_
  refine congrArg (Finset.fold max _ · _) (funext fun k => congrArg src ?_)
  funext c; apply Fin.ext
  match c with
  | ⟨0, _⟩ => rfl
  | ⟨1, _⟩ => rfl

/-- A unit-stride slice of `w` columns from column `o` of an `[n, W]` matrix reads, at `(r, j)`, the matrix at `(r, o + j)`. -/
theorem sliceCols_apply {n W w : ℕ} (o : ℕ) (x : (⟨2, ![n, W]⟩ : Shape).Idx → α)
    (h : (⟨2, ![n, W]⟩ : Shape).Slices ![0, o] ⟨2, ![n, w]⟩) (r : Fin n) (j : Fin w) (q : Fin W) (hq : q.val = o + j.val) :
    extractStridedSlice ⟨2, ![n, w]⟩ ![0, o] x h (ix2 r j) = x (ix2 r q) :=
  extractStridedSlice_apply ![0, o] x h (ix2 r j) (ix2 r q) fun ax => by
    match ax with
    | ⟨0, _⟩ => show r.val = 0 + r.val; omega
    | ⟨1, _⟩ => show q.val = o + j.val; exact hq

end Cert.LibFlashForms

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.TileValue.lean ====
/-
  What the kernel's body stores for one tile, read at an entry.

  The body loads a tile `x0` of 1024 token rows, the whole weight matrix `x1` and the bias `x2`, and stores one
  `[1024, 64]` value. Its arithmetic splits in two: the tile's logits `x0 · x1ᵀ + x2` (a matrix product onto the zero
  accumulator, the bias cast to one row and repeated down the rows), and the softmax along each row of those logits
  (the row's maximum from −∞, the exponentials of the shifted logits, their row sum, the quotient; each row quantity
  cast to a column and repeated along the row). Entry `(p, e)` of the stored value is therefore the router head of row
  `p` of the tile, at expert `e`.
-/
import proofs.«177624_g70214125355034_cont_9to1c4b_181_27_alg».proof.Proof.Gen.KernelIdeal.Skeleton
import proofs.«177624_g70214125355034_cont_9to1c4b_181_27_alg».proof.Proof.Softmax
import proofs.«177624_g70214125355034_cont_9to1c4b_181_27_alg».proof.Proof.LibFlashForms
import proofs.«177624_g70214125355034_cont_9to1c4b_181_27_alg».proof.Proof.LibRowForms
import Idealize.ShloMosaic.Lib.ValueLayout

noncomputable section

namespace Cert.KernelIdeal.Tile

open Cert.KernelIdeal Idealize.ShloMosaic Idealize.ShloMosaic.ValueIdx Cert.Router
open Cert.KernelIdeal.Facts₀
open scoped BigOperators

/-- The tile's logits: the product of the token rows with the transposed weight matrix onto zero, plus the bias
    repeated down the rows. -/
def tileLogits (x0 : FVec Ideal S1024x4096 .f32) (x1 : FVec Ideal S64x4096 .f32) (x2 : FVec Ideal S64 .f32) :
    FVec Ideal S1024x64 .f32 :=
  addf (matmul dot_S1024x4096_S64x4096_S1024x64_1_1_0_0_n_n none (shapeCast S1024x4096 x0 shapeCasts_S1024x4096_S1024x4096) x1
      (constant (F := Ideal) S1024x64 .f32 0x00000000#32))
    (broadcastTo S1024x64 (shapeCast S1x64 x2 shapeCasts_S64_S1x64) broadcasts_S1x64_S1024x64)

/-- The row-wise softmax of a `[1024, 64]` tile of logits, as the vector unit computes it. -/
def softmaxTile (L : FVec Ideal S1024x64 .f32) : FVec Ideal S1024x64 .f32 :=
  divf (exp (subf L (broadcastTo S1024x64 (shapeCast S1024x1
        (multiReduction .maximumf [1] S1024 L 0xFF800000#32 reduces_S1024x64_S1024 (.inl rfl) rfl) shapeCasts_S1024_S1024x1)
        broadcasts_S1024x1_S1024x64)))
    (broadcastTo S1024x64 (shapeCast S1024x1
        (multiReduction .add [1] S1024 (exp (subf L (broadcastTo S1024x64 (shapeCast S1024x1
          (multiReduction .maximumf [1] S1024 L 0xFF800000#32 reduces_S1024x64_S1024 (.inl rfl) rfl) shapeCasts_S1024_S1024x1)
          broadcasts_S1024x1_S1024x64))) 0x00000000#32 reduces_S1024x64_S1024 (.inl rfl) rfl) shapeCasts_S1024_S1024x1)
      broadcasts_S1024x1_S1024x64)

/-- The body's stored value is the softmax of the tile's logits. -/
theorem pay_eq (x0 : Vec Ideal S1024x4096 .f32) (x1 : Vec Ideal S64x4096 .f32) (x2 : Vec Ideal S64 .f32) :
    Gen.k0_pay1 (F := Ideal) x0 x1 x2 = softmaxTile (tileLogits x0 x1 x2) := rfl

/-- Entry `(p, e)` of the tile's logits is the logit of expert `e` for row `p`. -/
theorem tileLogits_apply (x0 : FVec Ideal S1024x4096 .f32) (x1 : FVec Ideal S64x4096 .f32) (x2 : FVec Ideal S64 .f32)
    (p : Fin 1024) (e : Fin 64) :
    tileLogits x0 x1 x2 (ix2 p e) = logit (fun d => x0 (ix2 p d)) (wOf x1) (bOf x2) e := by
  unfold tileLogits logit
  rw [addf_apply, shapeCast_self]
  refine congrArg₂ (· + ·) ?_ ?_
  · exact Cert.LibFlashForms.matmul_nt_zero_apply dot_S1024x4096_S64x4096_S1024x64_1_1_0_0_n_n_wf none x0 x1 p e
  · refine (broadcastTo_1b_ab_apply _ broadcasts_S1x64_S1024x64 p e).trans ?_
    exact shapeCast_a_1a_apply x2 shapeCasts_S64_S1x64 (0 : Fin 1) e

/-- The maximum column of a tile, repeated along the rows, reads at `(p, k)` the maximum of row `p`. -/
theorem maxCol_apply (L : FVec Ideal S1024x64 .f32) (p : Fin 1024) (k : Fin 64) :
    broadcastTo S1024x64 (shapeCast S1024x1
        (multiReduction .maximumf [1] S1024 L 0xFF800000#32 reduces_S1024x64_S1024 (.inl rfl) rfl) shapeCasts_S1024_S1024x1)
        broadcasts_S1024x1_S1024x64 (ix2 p k)
      = rowMax (fun j => L (ix2 p j)) := by
  refine (Cert.LibRowForms.broadcastTo_a1_ab_apply _ broadcasts_S1024x1_S1024x64 p k).trans ?_
  refine (Cert.LibRowForms.shapeCast_a_a1_apply _ shapeCasts_S1024_S1024x1 p (0 : Fin 1)).trans ?_
  exact Cert.LibFlashForms.rowMax_apply L 0xFF800000#32 reduces_S1024x64_S1024 (.inl rfl) rfl p

/-- The sum column of a tile, repeated along the rows, reads at `(p, k)` the sum of row `p`. -/
theorem sumCol_apply (E : FVec Ideal S1024x64 .f32) (p : Fin 1024) (k : Fin 64) :
    broadcastTo S1024x64 (shapeCast S1024x1
        (multiReduction .add [1] S1024 E 0x00000000#32 reduces_S1024x64_S1024 (.inl rfl) rfl) shapeCasts_S1024_S1024x1)
        broadcasts_S1024x1_S1024x64 (ix2 p k)
      = ∑ j : Fin 64, E (ix2 p j) := by
  refine (Cert.LibRowForms.broadcastTo_a1_ab_apply _ broadcasts_S1024x1_S1024x64 p k).trans ?_
  refine (Cert.LibRowForms.shapeCast_a_a1_apply _ shapeCasts_S1024_S1024x1 p (0 : Fin 1)).trans ?_
  exact Cert.LibRowForms.laneSum_apply E 0x00000000#32 reduces_S1024x64_S1024 (.inl rfl) rfl p

/-- Entry `(p, e)` of the softmax of a tile is the softmax of row `p` at `e`. -/
theorem softmaxTile_apply (L : FVec Ideal S1024x64 .f32) (p : Fin 1024) (e : Fin 64) :
    softmaxTile L (ix2 p e) = softmax (fun k => L (ix2 p k)) e := by
  unfold softmaxTile softmax
  rw [divf_apply, sumCol_apply]
  refine congrArg₂ Ideal.div ?_ (Finset.sum_congr rfl fun k _ => ?_)
  · show Ideal.exp (L (ix2 p e) - _) = _
    rw [maxCol_apply]
  · show Ideal.exp (L (ix2 p k) - _) = _
    rw [maxCol_apply]

/-- Entry `(p, e)` of what the body stores is the router head of row `p` of the loaded tile at expert `e`. -/
theorem pay_apply (x0 : Vec Ideal S1024x4096 .f32) (x1 : Vec Ideal S64x4096 .f32) (x2 : Vec Ideal S64 .f32)
    (p : Fin 1024) (e : Fin 64) :
    Gen.k0_pay1 (F := Ideal) x0 x1 x2 (ix2 p e) = head (fun d => x0 (ix2 p d)) (wOf x1) (bOf x2) e := by
  rw [pay_eq, softmaxTile_apply]
  unfold head
  exact congrArg (fun ℓ => softmax ℓ e) (funext fun k => tileLogits_apply x0 x1 x2 p k)

end Cert.KernelIdeal.Tile

end
-- ==== Proof.KernelArray.lean ====
/-
  The kernel's result array after the pipelined call: the router head of every flattened token row.

  Grid point `t` of 16 stages rows `1024·t … 1024·t + 1023` of the flattened tokens, the whole weight matrix and the whole
  bias, and writes back rows `1024·t … 1024·t + 1023` of the `[16384, 64]` result. What it writes is the body's stored
  value, whose entry `(p, e)` is the head of row `p` of the staged tile: that is the head of row `1024·t + p` of the
  flattened tokens. The sixteen blocks tile the result, so the whole array ends as the head of every row.
-/
import proofs.«177624_g70214125355034_cont_9to1c4b_181_27_alg».proof.Proof.Gen.KernelIdeal.Frame
import proofs.«177624_g70214125355034_cont_9to1c4b_181_27_alg».proof.Proof.TileValue
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx Cert.Router
open Idealize.ShloMosaic.Pipeline (Dat)

variable (m : (ℓ : Loc nD τ sig) → Buf (Elt Ideal) ℓ)

/-- The flattened tokens, the weight matrix and the bias as the pipelined call finds them. -/
abbrev tokens (c : Dev nD) : (⟨2, ![16384, 4096]⟩ : Shape).Idx → EReal := V m c main_v0
abbrev weights (c : Dev nD) : (⟨2, ![64, 4096]⟩ : Shape).Idx → EReal := V m c main_arg1
abbrev bias (c : Dev nD) : (⟨1, ![64]⟩ : Shape).Idx → EReal := V m c main_arg2

theorem hz2 : (![0, 0] : Fin 2 → Nat) = fun _ => 0 := funext fun a => by fin_cases a <;> rfl
theorem hz1 : (![0] : Fin 1 → Nat) = fun _ => 0 := funext fun a => by fin_cases a <;> rfl

/-- The printed index maps over the sixteen points: the token window and the result window are at block row `t`,
    column block 0; the weight and bias windows never move. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0
    ∧ t.val < 16 :=
  (by decide +kernel : ∀ t : Fin grid0.N, _)

/-- Every block row of the result is some point's. -/
theorem idx_onto : ∀ q : Fin 16, ∃ t : Fin cfg0.N, win0_3.index t = ![q.val, 0] :=
  (by decide +kernel : ∀ q : Fin 16, ∃ t : Fin grid0.N, win0_3.index t = ![q.val, 0])

/-- Row `p` of the token tile staged at point `t` is row `1024·t + p` of the flattened tokens. -/
theorem read_tokens (c : Dev nD) (t : Fin cfg0.N) (p : Fin 1024) (d : Fin 4096) (R : Fin 16384) (hR : R.val = t.val * 1024 + p.val) :
    iblk m c 0 t (ix2 p d) = tokens m c (ix2 R d) := by
  obtain ⟨e0, e1, -, -, -, -, -, -⟩ := idx_facts t
  show V m c main_v0 (((cfg0.win 0).blk t).view.emb (ix2 p d)) = V m c main_v0 (ix2 R d)
  refine congrArg (V m c main_v0) ?_
  funext a; apply Fin.ext
  match a with
  | ⟨0, _⟩ => show win0_0.index t (0 : Fin 2) * 1024 + 1 * p.val = R.val; omega
  | ⟨1, _⟩ => show win0_0.index t (1 : Fin 2) * 4096 + 1 * d.val = d.val; omega

/-- The weight tile staged at any point is the whole weight matrix. -/
theorem read_weights (c : Dev nD) (t : Fin cfg0.N) (k : Fin 64) (d : Fin 4096) :
    iblk m c 1 t (ix2 k d) = weights m c (ix2 k d) := by
  obtain ⟨-, -, e2, e3, -, -, -, -⟩ := idx_facts t
  show V m c main_arg1 (((cfg0.win 1).blk t).view.emb (ix2 k d)) = V m c main_arg1 (ix2 k d)
  refine congrArg (V m c main_arg1) ?_
  funext a; apply Fin.ext
  match a with
  | ⟨0, _⟩ => show win0_1.index t (0 : Fin 2) * 64 + 1 * k.val = k.val; omega
  | ⟨1, _⟩ => show win0_1.index t (1 : Fin 2) * 4096 + 1 * d.val = d.val; omega

/-- The bias staged at any point is the whole bias. -/
theorem read_bias (c : Dev nD) (t : Fin cfg0.N) (k : Fin 64) :
    iblk m c 2 t (ix1 k) = bias m c (ix1 k) := by
  obtain ⟨-, -, -, -, e4, -, -, -⟩ := idx_facts t
  show V m c main_arg2 (((cfg0.win 2).blk t).view.emb (ix1 k)) = V m c main_arg2 (ix1 k)
  refine congrArg (V m c main_arg2) ?_
  funext a; apply Fin.ext
  match a with
  | ⟨0, _⟩ => show win0_2.index t (0 : Fin 1) * 64 + 1 * k.val = k.val; omega

/-- Entry `(p, e)` of the result block of point `t` sits at `(1024·t + p, e)` of the result array. -/
theorem emb_result (t : Fin cfg0.N) (p : Fin 1024) (e : Fin 64) (R : Fin 16384) (hR : R.val = t.val * 1024 + p.val) :
    ((cfg0.win 3).blk t).view.emb (ix2 p e) = ix2 R e := by
  obtain ⟨-, -, -, -, -, e5, e6, -⟩ := idx_facts t
  funext a; apply Fin.ext
  match a with
  | ⟨0, _⟩ => show win0_3.index t (0 : Fin 2) * 1024 + 1 * p.val = R.val; omega
  | ⟨1, _⟩ => show win0_3.index t (1 : Fin 2) * 64 + 1 * e.val = e.val; omega

/-- What point `t` writes back is block `t` of the head of every flattened row. -/
theorem flushed_eq (c : Dev nD) (t : Fin cfg0.N) :
    (dats m 0 c).flushed 3 t
      = ((cfg0.win 3).blk t).view.read (Elt Ideal) (G2 (n := 16384) (tokens m c) (weights m c) (bias m c)) := by
  show (cfg0.win 3).cut (grid0.coords t) ((dats m 0 c).after 3 t) = _
  rw [after0_3]
  unfold out0_3
  rw [View.canon_unit_zero hz2]
  simp only [View.ld_unit_zero (S := S1024x4096) hz2, View.ld_unit_zero (S := S64x4096) hz2, View.ld_unit_zero (S := S64) hz1]
  funext j
  obtain ⟨p, e, rfl⟩ : ∃ (p : Fin 1024) (e : Fin 64), j = ix2 p e := ⟨j 0, j 1, eq_ix2 j⟩
  have ht : t.val < 16 := (idx_facts t).2.2.2.2.2.2.2
  show k0_pay1 (F := Ideal) (iblk m c 0 t) (iblk m c 1 t) (iblk m c 2 t) (ix2 p e)
    = G2 (n := 16384) (tokens m c) (weights m c) (bias m c) (((cfg0.win 3).blk t).view.emb (ix2 p e))
  refine (Tile.pay_apply (iblk m c 0 t) (iblk m c 1 t) (iblk m c 2 t) p e).trans ?_
  rw [emb_result t p e ⟨t.val * 1024 + p.val, by omega⟩ rfl, G2_ix2]
  have h0 : (fun d : Fin 4096 => iblk m c 0 t (ix2 p d))
      = fun d => tokens m c (ix2 (⟨t.val * 1024 + p.val, by omega⟩ : Fin 16384) d) :=
    funext fun d => read_tokens m c t p d ⟨t.val * 1024 + p.val, by omega⟩ rfl
  have h1 : wOf (iblk m c 1 t) = wOf (weights m c) := funext fun k => funext fun d => read_weights m c t k d
  have h2 : bOf (iblk m c 2 t) = bOf (bias m c) := funext fun k => read_bias m c t k
  rw [h0, h1, h2]

/-- An index of the result array is in point `t`'s block iff each coordinate is in the block's range on its axis. -/
theorem mem_blk (t : Fin cfg0.N) (i : S16384x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1).slice (win0_3.rect t)).set ↔ _
  rw [View.set_slice_whole, Rect.mem_set_unit]
  exact Iff.rfl

/-- Every index of the result array is in the block of the point its row falls in. -/
theorem cover (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-- The result array after the pipelined call is the head of every flattened token row. -/
theorem final (c : Dev nD) :
    (dats m 0 c).arrAt 3 cfg0.N = G2 (n := 16384) (tokens m c) (weights m c) (bias m c) :=
  (dats m 0 c).arrAt_eq_of_cover 3 _ (fun t _ => flushed_eq m c t) cover

end Cert.KernelIdeal.Array

end
-- ==== Proof.KernelRun.lean ====
/-
  The kernel's whole program, run: its result is the router head of its three arguments.

  Before the pipelined call the program flattens the tokens `[4, 4096, 4096]` to `[16384, 4096]` (row `a·4096 + r` is
  token `(a, r)`); after it, it folds the `[16384, 64]` result back to `[4, 4096, 64]` the same way. With the result array
  of the call known to be the head of every flattened row, entry `(a, r, e)` of the program's result is the head of
  token `(a, r)` at expert `e`; the arguments end as they were launched.
-/
import proofs.«177624_g70214125355034_cont_9to1c4b_181_27_alg».proof.Proof.Gen.KernelIdeal.Frame
import proofs.«177624_g70214125355034_cont_9to1c4b_181_27_alg».proof.Proof.KernelArray
import Idealize.ShloMosaic.Lib.Pipeline.Value
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.ValueIdx Cert.Router Cert.KernelIdeal.Array
open Idealize.ShloMosaic.Pipeline (Dat)

variable (m : (ℓ : Loc nD τ sig) → Buf (Elt Ideal) ℓ) (ρ : Dev nD → PrngReg)

/-- The flattened tokens the call finds are the launched tokens in row-major order at `[16384, 4096]`. -/
theorem tokens_eq (c : Dev nD) :
    tokens m c = shapeCast S16384x4096 (m ((c : Thread nD τ).loc main_arg0)) Gen.shapeCasts_S4x4096x4096_S16384x4096 := by
  show StableHlo.after hostOps0 (fun b => m (c, b)) (Proc.devRef .tc main_v0) = _
  after_results
  rfl

/-- Row `a·4096 + r` of the flattened tokens is token `(a, r)`. -/
theorem tokens_apply (c : Dev nD) (a : Fin 4) (r : Fin 4096) (d : Fin 4096) (R : Fin 16384) (hR : R.val = a.val * 4096 + r.val) :
    tokens m c (ix2 R d) = m ((c : Thread nD τ).loc main_arg0) (ix3 a r d) := by
  rw [tokens_eq]
  refine shapeCast_apply _ _ (ix2 R d) (ix3 a r d) ?_
  rw [Shape.rowMajor_val_three, Shape.rowMajor_val_two]
  show (a.val * 4096 + r.val) * 4096 + d.val = R.val * 4096 + d.val
  rw [hR]

/-- The head of every flattened row, folded back to `[4, 4096, 64]`, is the head of every token. -/
theorem fold_back (c : Dev nD) (h : S16384x64.ShapeCasts S4x4096x64) :
    shapeCast S4x4096x64 (G2 (n := 16384) (tokens m c) (weights m c) (bias m c)) h
      = G3 (m ((c : Thread nD τ).loc main_arg0)) (m ((c : Thread nD τ).loc main_arg1)) (m ((c : Thread nD τ).loc main_arg2)) := by
  funext i
  obtain ⟨a, r, e, rfl⟩ : ∃ (a : Fin 4) (r : Fin 4096) (e : Fin 64), i = ix3 a r e := ⟨i 0, i 1, i 2, eq_ix3 i⟩
  have hlt : a.val * 4096 + r.val < 16384 := by have := a.isLt; have := r.isLt; omega
  refine (shapeCast_apply _ h (ix3 a r e) (ix2 (⟨a.val * 4096 + r.val, hlt⟩ : Fin 16384) e) (by
    rw [Shape.rowMajor_val_three, Shape.rowMajor_val_two]
    show (a.val * 4096 + r.val) * 64 + e.val = (a.val * 4096 + r.val) * 64 + e.val
    rfl)).trans ?_
  rw [G2_ix2, G3_ix3]
  have h0 : (fun d : Fin 4096 => tokens m c (ix2 (⟨a.val * 4096 + r.val, hlt⟩ : Fin 16384) d))
      = fun d => m ((c : Thread nD τ).loc main_arg0) (ix3 a r d) :=
    funext fun d => tokens_apply m c a r d ⟨a.val * 4096 + r.val, hlt⟩ rfl
  have h1 : weights m c = m ((c : Thread nD τ).loc main_arg1) := V_main_arg1 m c
  have h2 : bias m c = m ((c : Thread nD τ).loc main_arg2) := V_main_arg2 m c
  rw [h0, h1, h2]

/-- What the lines after the call leave in the program's result: the call's result array folded back. -/
theorem tail_eq (c : Dev nD) :
    Pipeline.afterTail₀ cfgs (dats m) 0 (V0 m) [hostOps1] c main_v2
      = G3 (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = G2 (n := 16384) (tokens m c) (weights m c) (bias m c) :=
    (Pipeline.withArrays_arr spec0 launch0.win.arr_inj c _ _ 3).trans (final m c)
  refine Eq.trans ?_ (fold_back m c Gen.shapeCasts_S16384x64_S4x4096x64)
  exact congrArg (fun v : S16384x64.Idx → EReal => shapeCast S4x4096x64 v Gen.shapeCasts_S16384x64_S4x4096x64) hw

/-- Every weakly fair execution of the kernel's program terminates with its result the router head of the launched
    arguments, and the arguments as launched. -/
theorem run : θ_run defs (onTc (τ := τ) (main (F := Ideal))) ⟨m, fun _ => 0, ρ⟩ fun r => ∀ c : Dev nD,
      r.2.mem ((c.tc : Thread nD τ).loc main_v2)
        = G3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Run

end
-- ==== Proof.RefValue.lean ====
/-
  The reference's result, read at an entry, is the router head.

  The reference forms the logits of every token by one contraction over the 4096 features plus the bias repeated over
  the tokens, takes each token's maximum over the 64 experts (a reduction from −∞, then a maximum with −∞ again, which
  changes nothing), exponentiates the shifted logits, sums them over the experts (from zero) and divides. Entry
  `(a, r, e)` is the head of token `(a, r)` at expert `e`.
-/
import proofs.«177624_g70214125355034_cont_9to1c4b_181_27_alg».proof.Proof.Gen.ReferenceIdeal.Read
import proofs.«177624_g70214125355034_cont_9to1c4b_181_27_alg».proof.Proof.Softmax
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Router
open scoped BigOperators

/-- −∞ is neutral for the maximum. -/
theorem negInf_max (y : EReal) : max (Ideal.ofBits .f32 0xFF800000#32) y = y := by
  simp [Ideal.ofBits, Ideal.ieee]

/-- The token index `(a, r)` with expert `k` put back on the reduced axis is `(a, r, k)`. -/
theorem lift_ix3 (h : S4x4096x64.Reduces [2] S4x4096) (a : Fin 4) (r : Fin 4096) (k : Fin (S4x4096x64.size 2)) :
    h.lift (ix2 a r) k = ix3 a r (⟨k.val, k.isLt⟩ : Fin 64) := by
  funext c; apply Fin.ext
  fin_cases c <;> rfl

/-- The host's maximum over the experts, from −∞, at token `(a, r)` is the fold of `max` over that token's row. -/
theorem hostRowMax_apply (x : FVec Ideal S4x4096x64 .f32) (h' : S4x4096x64.ReducesTo [2] S4x4096)
    (hu : 0 < S_.numel) (a : Fin 4) (r : Fin 4096) :
    Host.reduce FloatOps.maximumf x (constant (F := Ideal) S_ .f32 0xFF800000#32) h' hu (ix2 a r)
      = rowMax (fun k => x (ix3 a r k)) := by
  have h : S4x4096x64.Reduces [2] S4x4096 := by decide
  rw [Host.reduce_eq_fold_single FloatOps.maximumf x _ h' h hu]
  unfold rowMax
  have hf : (x ∘ h.lift (ix2 a r)) = fun k : Fin 64 => x (ix3 a r k) := funext fun k => congrArg x (lift_ix3 h a r k)
  exact congrArg (fun f => Finset.fold max (Ideal.ofBits .f32 0xFF800000#32) f (Finset.univ : Finset (Fin 64))) hf

variable (x0 : (⟨S4x4096x4096, .f32⟩ : BufTy).Contents (Elt Ideal)) (x1 : (⟨S64x4096, .f32⟩ : BufTy).Contents (Elt Ideal))
  (x2 : (⟨S64, .f32⟩ : BufTy).Contents (Elt Ideal))

/-- The reference's logits at `(a, r, k)`. -/
theorem logits_apply (a : Fin 4) (r : Fin 4096) (k : Fin 64) :
    val_main_v3 (F := Ideal) x0 x1 x2 (ix3 a r k) = logit (fun d => x0 (ix3 a r d)) (wOf x1) (bOf x2) k := by
  rw [val_main_v3_apply, val_main_v0_apply, val_main_v2_apply, val_main_v1_apply]
  unfold logit
  have el : ∀ d : Fin 4096, lidx_main_v0 (ix3 a r k) d = ix3 a r d := fun d =>
    funext fun c => by match c with | ⟨0, _⟩ => rfl | ⟨1, _⟩ => rfl | ⟨2, _⟩ => rfl
  have er : ∀ d : Fin 4096, ridx_main_v0 (ix3 a r k) d = ix2 k d := fun d =>
    funext fun c => by match c with | ⟨0, _⟩ => rfl | ⟨1, _⟩ => rfl
  have eb : idx_main_v1 (idx_main_v2 (ix3 a r k)) = ix1 k :=
    funext fun c => by match c with | ⟨0, _⟩ => rfl
  simp only [el, er, eb, Ideal.addf_def]

/-- The reference's row maximum, repeated over the experts, at `(a, r, k)`. -/
theorem maxs_apply (a : Fin 4) (r : Fin 4096) (k : Fin 64) :
    val_main_v8 (F := Ideal) x0 x1 x2 (ix3 a r k) = rowMax (fun j => val_main_v3 (F := Ideal) x0 x1 x2 (ix3 a r j)) := by
  rw [val_main_v8_apply, val_main_v7_apply, val_main_v6_apply, val_main_v5_apply, val_main_cst_0_apply]
  have ei : idx_main_v7 (idx_main_v8 (ix3 a r k)) = ix2 a r :=
    funext fun c => by match c with | ⟨0, _⟩ => rfl | ⟨1, _⟩ => rfl
  rw [ei]
  unfold val_main_v4 val_main_cst
  rw [hostRowMax_apply]
  exact negInf_max _

/-- The reference's exponentials at `(a, r, k)`. -/
theorem exps_apply (a : Fin 4) (r : Fin 4096) (k : Fin 64) :
    val_main_v10 (F := Ideal) x0 x1 x2 (ix3 a r k)
      = Ideal.exp (val_main_v3 (F := Ideal) x0 x1 x2 (ix3 a r k) - rowMax (fun j => val_main_v3 (F := Ideal) x0 x1 x2 (ix3 a r j))) := by
  rw [val_main_v10_apply, val_main_v9_apply, maxs_apply]
  rfl

/-- The reference's row sums, repeated over the experts, at `(a, r, e)`. -/
theorem sums_apply (a : Fin 4) (r : Fin 4096) (e : Fin 64) :
    val_main_v13 (F := Ideal) x0 x1 x2 (ix3 a r e) = ∑ k : Fin 64, val_main_v10 (F := Ideal) x0 x1 x2 (ix3 a r k) := by
  rw [val_main_v13_apply, val_main_v12_apply, val_main_v11_apply, val_main_cst_1_apply]
  have e0 : FloatOps.ofBits (F := Ideal) .f32 0x00000000#32 = 0 := Ideal.ofBits_zero_f32
  rw [e0, zero_add]
  refine Finset.sum_congr rfl fun k _ => congrArg _ ?_
  exact funext fun c => by match c with | ⟨0, _⟩ => rfl | ⟨1, _⟩ => rfl | ⟨2, _⟩ => rfl

/-- The reference's result is the router head of its three arguments. -/
theorem result_eq : val_main_v14 (F := Ideal) x0 x1 x2 = G3 x0 x1 x2 := by
  funext i
  obtain ⟨a, r, e, rfl⟩ : ∃ (a : Fin 4) (r : Fin 4096) (e : Fin 64), i = ix3 a r e := ⟨i 0, i 1, i 2, eq_ix3 i⟩
  rw [G3_ix3, val_main_v14_apply, sums_apply, exps_apply]
  unfold head softmax
  have hL : (fun k => val_main_v3 (F := Ideal) x0 x1 x2 (ix3 a r k)) = logit (fun d => x0 (ix3 a r d)) (wOf x1) (bOf x2) :=
    funext fun k => logits_apply x0 x1 x2 a r k
  simp only [exps_apply, Ideal.hostDivf_def]
  rw [hL]
  simp only [logits_apply]

end Cert.ReferenceIdeal.RefValue

end
-- ==== Proof.lean ====
/-
  The router head `softmax (x · Wᵀ + b)` over 64 experts: the kernel and its reference compute one function.

  On the extended reals both programs give, for token `(a, r)` and expert `e`,
  `exp (ℓ e − M) / Σ_k exp (ℓ k − M)` with `ℓ k = Σ_d x (a, r, d) · W (k, d) + b k` and `M` the maximum of the 64 logits
  folded from −∞ (Proof/Softmax.lean). The kernel flattens the tokens to `[16384, 4096]`, computes the head of 1024
  rows per grid point on a staged tile (Proof/TileValue.lean: the matrix unit's product onto zero is the sum over the
  features, the bias a repeated row, the row maximum and the row sum repeated columns), writes sixteen blocks that tile
  the `[16384, 64]` result (Proof/KernelArray.lean) and folds it back to `[4, 4096, 64]` (Proof/KernelRun.lean). The
  reference does the same arithmetic on whole arrays, with one more maximum against −∞ that changes nothing and a sum
  started from zero (Proof/RefValue.lean). No step uses that the inputs are finite: only commutativity and associativity
  of sums and maxima are needed, and the same operations meet the same values on both sides.

  The three frames are the generated frame runs; the idealized kernel is the kernel's own text read on the extended
  reals, so there is nothing to preserve.
-/
import proofs.«177624_g70214125355034_cont_9to1c4b_181_27_alg».proof.Defs
import proofs.«177624_g70214125355034_cont_9to1c4b_181_27_alg».proof.Proof.Gen.Kernel
import proofs.«177624_g70214125355034_cont_9to1c4b_181_27_alg».proof.Proof.Gen.Kernel.Frame
import proofs.«177624_g70214125355034_cont_9to1c4b_181_27_alg».proof.Proof.Gen.KernelIdeal
import proofs.«177624_g70214125355034_cont_9to1c4b_181_27_alg».proof.Proof.Gen.KernelIdeal.Frame
import proofs.«177624_g70214125355034_cont_9to1c4b_181_27_alg».proof.Proof.Gen.ReferenceIdeal
import proofs.«177624_g70214125355034_cont_9to1c4b_181_27_alg».proof.Proof.Gen.ReferenceIdeal.Run
import proofs.«177624_g70214125355034_cont_9to1c4b_181_27_alg».proof.Proof.Gen.ReferenceIdeal.Read
import proofs.«177624_g70214125355034_cont_9to1c4b_181_27_alg».proof.Proof.Gen.Pre_finite_inputs
import proofs.«177624_g70214125355034_cont_9to1c4b_181_27_alg».proof.Proof.KernelRun
import proofs.«177624_g70214125355034_cont_9to1c4b_181_27_alg».proof.Proof.RefValue
import Idealize.ShloMosaic.Adequacy
import Idealize.ShloMosaic.Init

noncomputable section

namespace Cert.Proof

open Idealize.ShloMosaic Idealize.SL.Sem Cert.Router

/-- The kernel runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the reading on the extended reals. -/
theorem preserves : Cert.preserves_Kernel_KernelIdeal := trivial

/-- From memories agreeing on the arguments both programs end with the router head of those arguments. -/
theorem algebraic : Cert.algebraic_KernelIdeal_ReferenceIdeal := by
  intro m ρ m' ρ' _ hagree
  refine ⟨fun c => G3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
